-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S5000x256 : Shape := ⟨2, ![5000, 256]⟩
abbrev S5000x128 : Shape := ⟨2, ![5000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 131
  | .vmem => 10
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S100000x128, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x256, .f32⟩

abbrev hbmTy0_1 (i : Nat) : BufTy := match i % 128 with
  | 0 => ⟨S1x64, .f32⟩
  | 1 => ⟨S100000x64, .f32⟩
  | 2 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x256, .f32⟩

abbrev hbmTy0_1 (i : Nat) : BufTy := match i % 128 with
  | 0 => ⟨S1x64, .f32⟩
  | 1 => ⟨S100000x64, .f32⟩
  | 2 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The exact matrix product that both programs compute in each layer.

  Over the extended reals a product of an [A, K] array by a [K, B] array has, at entry (p, c), the value
  Σ_k lhs[p, k] · rhs[k, c]: no rounding and no order of summation is left.  The accelerator computes it one
  block of rows at a time, the host in one piece; both are this function of the two whole arrays.
-/
import Idealize.ShloMosaic.PureOps.Ideal
import Idealize.ShloMosaic.Lib.ValueIdx

noncomputable section

open scoped BigOperators

namespace Cert.Gcn

open Idealize.ShloMosaic Idealize.ShloMosaic.ValueIdx

/-- Entry (p, c) of the product: the sum over the contracted position k of lhs[p, k] · rhs[k, c]. -/
def plainDot {A K B : Nat} (lhs : (⟨2, ![A, K]⟩ : Shape).Idx → EReal) (rhs : (⟨2, ![K, B]⟩ : Shape).Idx → EReal) :
    (⟨2, ![A, B]⟩ : Shape).Idx → EReal :=
  fun j => ∑ k : Fin K, lhs (ix2 (j 0) k) * rhs (ix2 k (j 1))

/-- The product read at an index given by its two coordinates. -/
theorem plainDot_ix2 {A K B : Nat} (lhs : (⟨2, ![A, K]⟩ : Shape).Idx → EReal) (rhs : (⟨2, ![K, B]⟩ : Shape).Idx → EReal)
    (p : Fin A) (c : Fin B) : plainDot lhs rhs (ix2 p c) = ∑ k : Fin K, lhs (ix2 p k) * rhs (ix2 k c) := rfl

end Cert.Gcn

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.Blocks.lean ====
/-
  From row blocks to the whole product.

  Each of the two accelerator regions multiplies a tall array by a small one, one block of 5000 rows at a time: at
  point t of its 20 points it reads rows 5000 t … 5000 t + 4999 of the left array and the whole right array, and writes
  rows 5000 t … 5000 t + 4999 of the product array. Over the extended reals the narrowing of the operands is the
  identity and the product into a zero accumulator is the plain sum over the contracted position, so entry (p, c) of
  the block written at point t is  Σ_k left[5000 t + p, k] · right[k, c]: an entry of the product depends only on its
  own row of the left array and its own column of the right one, so the product of a row block IS the row block of the
  product. The 20 blocks tile the 100000 rows (row r lies in block r / 5000) and every point writes its block back, so
  after the region the product array is the exact product of the two whole arrays, as they stood when the region was
  entered.
-/
import proofs.«157119_j27711128994063_1_alg».proof.Proof.Gen.KernelIdeal.Frame
import proofs.«157119_j27711128994063_1_alg».proof.Proof.Spec
import proofs.«157119_j27711128994063_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer load or store, however spelt. -/
theorem hz : (![0, 0] : Fin 2 → Nat) = fun _ => 0 := funext fun a => by fin_cases a <;> rfl

/-! ## The first region: [100000, 256] by [256, 128] -/

/-- The index maps over the 20 points: the left and the product windows are at block (t, 0), the right window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of what the body stores, over any two loaded blocks: Σ_k x0[p, k] · x1[k, q]. -/
theorem pay0_apply (x0 : Vec Ideal S5000x256 .f32) (x1 : Vec Ideal S256x128 .f32) (p : Fin 5000) (q : Fin 128) :
    k0_pay1 x0 x1 (ix2 p q) = ∑ k : Fin 256, (x0 (ix2 p k) : EReal) * (x1 (ix2 k q) : EReal) := by
  unfold k0_pay1
  exact PlainDot.matmul_zero_apply dot_S5000x256_S256x128_S5000x128_1_0_0_1_n_n none rfl rfl
    (fun _ _ => rfl) (fun _ _ => rfl) (fun _ _ => rfl) (fun _ _ => rfl) x0 x1 p q

/-- Entry (p, k) of the left window's block at point t is entry (5000 t + p, k) of the left array. -/
theorem iblk0_0_apply (c : Dev nD) (t : Fin cfg0.N) (p : Fin 5000) (k : Fin 256) (i : S100000x256.Idx)
    (h0 : (i 0).val = 5000 * t.val + p.val) (h1 : (i 1).val = k.val) :
    (iblk0 V c 0 t : Vec Ideal S5000x256 .f32) (ix2 p k) = (V c main_arg0 : S100000x256.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = (i 0).val; rw [e0, h0]; omega
  | ⟨1, _⟩ => show win0_0.index t 1 * 256 + 1 * k.val = (i 1).val; rw [e1, h1]; omega

/-- The right window's one block is the right array. -/
theorem iblk0_1_apply (c : Dev nD) (t : Fin cfg0.N) (k : Fin 256) (q : Fin 128) (i : S256x128.Idx)
    (h0 : (i 0).val = k.val) (h1 : (i 1).val = q.val) :
    (iblk0 V c 1 t : Vec Ideal S256x128 .f32) (ix2 k q) = (V c main_arg2 : S256x128.Idx → EReal) i := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 256 + 1 * k.val = (i 0).val; rw [e2, h0]; omega
  | ⟨1, _⟩ => show win0_1.index t 1 * 128 + 1 * q.val = (i 1).val; rw [e3, h1]; omega

/-- What point t writes back is block t of the product of the two whole arrays. -/
theorem flushed0_eq (c : Dev nD) (t : Fin cfg0.N) :
    (dat0 (F := Ideal) V c).flushed 2 t = ((cfg0.win 2).blk t).view.read (Elt Ideal)
      (Cert.Gcn.plainDot (A := 100000) (K := 256) (B := 128) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts0 t
  funext y
  show k0_pay1 (iblk0 V c 0 t) (iblk0 V c 1 t) y
    = Cert.Gcn.plainDot (A := 100000) (K := 256) (B := 128) (V c main_arg0) (V c main_arg2) (((cfg0.win 2).blk t).view.emb y)
  obtain ⟨p, q, rfl⟩ : ∃ (p : Fin 5000) (q : Fin 128), y = ix2 p q := ⟨y 0, y 1, eq_ix2 y⟩
  rw [pay0_apply]
  unfold Cert.Gcn.plainDot
  refine Finset.sum_congr rfl fun k _ => ?_
  refine congrArg₂ (· * ·) ?_ ?_
  · refine iblk0_0_apply V c t p k _ ?_ rfl
    show win0_2.index t 0 * 5000 + 1 * p.val = 5000 * t.val + p.val
    rw [e4]; omega
  · refine iblk0_1_apply V c t k q _ rfl ?_
    show win0_2.index t 1 * 128 + 1 * q.val = q.val
    rw [e5]; omega

/-- An index of the product array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row r of the product array lies in the block of point r / 5000, and every point writes its block back. -/
theorem cover0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4]; omega
  | ⟨1, _⟩ =>
    show win0_2.index t (1 : Fin 2) * 128 ≤ (i 1).val ∧ (i 1).val < win0_2.index t (1 : Fin 2) * 128 + 128
    rw [e5]; omega

/-- After the first region the product array is the exact product of the two whole arrays. -/
theorem region0_out (c : Dev nD) : (dat0 (F := Ideal) V c).arrAt 2 cfg0.N
    = Cert.Gcn.plainDot (A := 100000) (K := 256) (B := 128) (V c main_arg0) (V c main_arg2) :=
  (dat0 (F := Ideal) V c).arrAt_eq_of_cover 2
    (Cert.Gcn.plainDot (A := 100000) (K := 256) (B := 128) (V c main_arg0) (V c main_arg2))
    (fun t _ => flushed0_eq V c t) cover0

/-! ## The second region: [100000, 128] by [128, 64] -/

/-- The index maps over the 20 points: the left and the product windows are at block (t, 0), the right window at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of what the body stores, over any two loaded blocks (the reshape to the same shape is the identity):
    Σ_k x0[p, k] · x1[k, q]. -/
theorem pay1_apply (x0 : Vec Ideal S5000x128 .f32) (x1 : Vec Ideal S128x64 .f32) (p : Fin 5000) (q : Fin 64) :
    k1_pay1 x0 x1 (ix2 p q) = ∑ k : Fin 128, (x0 (ix2 p k) : EReal) * (x1 (ix2 k q) : EReal) := by
  unfold k1_pay1
  simp only [shapeCast_self]
  exact PlainDot.matmul_zero_apply dot_S5000x128_S128x64_S5000x64_1_0_0_1_n_n none rfl rfl
    (fun _ _ => rfl) (fun _ _ => rfl) (fun _ _ => rfl) (fun _ _ => rfl) x0 x1 p q

/-- Entry (p, k) of the left window's block at point t is entry (5000 t + p, k) of the left array. -/
theorem iblk1_0_apply (c : Dev nD) (t : Fin cfg1.N) (p : Fin 5000) (k : Fin 128) (i : S100000x128.Idx)
    (h0 : (i 0).val = 5000 * t.val + p.val) (h1 : (i 1).val = k.val) :
    (iblk1 V c 0 t : Vec Ideal S5000x128 .f32) (ix2 p k) = (V c main_v48 : S100000x128.Idx → EReal) i := by
  obtain ⟨e0, e1, -⟩ := idx_facts1 t
  unfold iblk1
  rw [View.read_apply]
  show V c main_v48 _ = V c main_v48 _
  congr 1
  funext a
  apply Fin.ext
  match a with
  | ⟨0, _⟩ => show win1_0.index t 0 * 5000 + 1 * p.val = (i 0).val; rw [e0, h0]; omega
  | ⟨1, _⟩ => show win1_0.index t 1 * 128 + 1 * k.val = (i 1).val; rw [e1, h1]; omega

/-- The right window's one block is the right array. -/
theorem iblk1_1_apply (c : Dev nD) (t : Fin cfg1.N) (k : Fin 128) (q : Fin 64) (i : S128x64.Idx)
    (h0 : (i 0).val = k.val) (h1 : (i 1).val = q.val) :
    (iblk1 V c 1 t : Vec Ideal S128x64 .f32) (ix2 k q) = (V c main_arg4 : S128x64.Idx → EReal) i := by
  obtain ⟨-, -, e2, e3, -⟩ := idx_facts1 t
  unfold iblk1
  rw [View.read_apply]
  show V c main_arg4 _ = V c main_arg4 _
  congr 1
  funext a
  apply Fin.ext
  match a with
  | ⟨0, _⟩ => show win1_1.index t 0 * 128 + 1 * k.val = (i 0).val; rw [e2, h0]; omega
  | ⟨1, _⟩ => show win1_1.index t 1 * 64 + 1 * q.val = (i 1).val; rw [e3, h1]; omega

/-- What point t writes back is block t of the product of the two whole arrays. -/
theorem flushed1_eq (c : Dev nD) (t : Fin cfg1.N) :
    (dat1 (F := Ideal) V c).flushed 2 t = ((cfg1.win 2).blk t).view.read (Elt Ideal)
      (Cert.Gcn.plainDot (A := 100000) (K := 128) (B := 64) (V c main_v48) (V c main_arg4)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts1 t
  funext y
  show k1_pay1 (iblk1 V c 0 t) (iblk1 V c 1 t) y
    = Cert.Gcn.plainDot (A := 100000) (K := 128) (B := 64) (V c main_v48) (V c main_arg4) (((cfg1.win 2).blk t).view.emb y)
  obtain ⟨p, q, rfl⟩ : ∃ (p : Fin 5000) (q : Fin 64), y = ix2 p q := ⟨y 0, y 1, eq_ix2 y⟩
  rw [pay1_apply]
  unfold Cert.Gcn.plainDot
  refine Finset.sum_congr rfl fun k _ => ?_
  refine congrArg₂ (· * ·) ?_ ?_
  · refine iblk1_0_apply V c t p k _ ?_ rfl
    show win1_2.index t 0 * 5000 + 1 * p.val = 5000 * t.val + p.val
    rw [e4]; omega
  · refine iblk1_1_apply V c t k q _ rfl ?_
    show win1_2.index t 1 * 64 + 1 * q.val = q.val
    rw [e5]; omega

/-- An index of the product array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49).slice (win1_2.rect t)).set ↔ _
  rw [View.set_slice_whole, Rect.mem_set_unit]
  exact Iff.rfl

/-- Row r of the product array lies in the block of point r / 5000, and every point writes its block back. -/
theorem cover1 (i : S100000x64.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e4]; omega
  | ⟨1, _⟩ =>
    show win1_2.index t (1 : Fin 2) * 64 ≤ (i 1).val ∧ (i 1).val < win1_2.index t (1 : Fin 2) * 64 + 64
    rw [e5]; omega

/-- After the second region the product array is the exact product of the two whole arrays. -/
theorem region1_out (c : Dev nD) : (dat1 (F := Ideal) V c).arrAt 2 cfg1.N
    = Cert.Gcn.plainDot (A := 100000) (K := 128) (B := 64) (V c main_v48) (V c main_arg4) :=
  (dat1 (F := Ideal) V c).arrAt_eq_of_cover 2
    (Cert.Gcn.plainDot (A := 100000) (K := 128) (B := 64) (V c main_v48) (V c main_arg4))
    (fun t _ => flushed1_eq V c t) cover1

end Cert.KernelIdeal.Blocks

end
-- ==== Proof.LibCat.lean ====
/-
  A concatenation of exactly two arrays, with the two pieces as plain arguments.

  The general concatenation takes its operands as a list of (shape, array) pairs; for two operands the same
  function is written here over the two arrays themselves, so that each can be rewritten on its own.
-/
import Idealize.ShloMosaic.PureOps

noncomputable section

namespace Cert.Cat

open Idealize.ShloMosaic

variable {α : Type}

/-- The concatenation of `a : s₁` and `b : s₂` along axis `d` of the result shape `t`. -/
def cat2 (t : Shape) (d : Fin t.rank) (s₁ s₂ : Shape) (a : s₁.Idx → α) (b : s₂.Idx → α)
    (h : Shape.Concatenates [s₁, s₂] t d) : t.Idx → α :=
  concatenate t d [⟨s₁, a⟩, ⟨s₂, b⟩] h

/-- The two-element list form is the two-argument form. -/
theorem cat2_eq (t : Shape) (d : Fin t.rank) (s₁ s₂ : Shape) (a : s₁.Idx → α) (b : s₂.Idx → α)
    (h : Shape.Concatenates [s₁, s₂] t d) :
    concatenate t d [⟨s₁, a⟩, ⟨s₂, b⟩] h = cat2 t d s₁ s₂ a b h := rfl

end Cert.Cat

end
-- ==== Proof.Layers.lean ====
/-
  One graph-convolution layer as a function of its arrays, and the two-layer network.

  The graph has n = 100000 nodes and E = 1600000 edges given as a 2 × E array of node numbers (row 0 the sources, row 1
  the targets); every node also gets a self-loop, so there are E + n = 1700000 weighted edges.  With every edge weight 1,
    deg[v]  = the number of edges whose target is v,
    dinv[v] = deg[v]^(-1/2) where deg[v] > 0, and 0 elsewhere,
    norm[e] = dinv[src e] · 1 · dinv[dst e],
  and a layer sends a feature matrix h (one row per node) and a bias b to
    out[v, :] = Σ_{e : dst e = v} h[src e, :] · norm[e]  +  b.
  A negative node number counts from the end (n is added to it) before a row is taken.  The network is
    out = layer(relu(layer(x · W1, b1)) · W2, b2)
  with the two matrix products exact (Spec.lean).  Every function below is written with the host operations the two
  programs print, in the order they print them, so that each program's buffers can be matched against it step by step.
-/
import proofs.«157119_j27711128994063_1_alg».proof.Proof.Gen.ReferenceIdeal
import proofs.«157119_j27711128994063_1_alg».proof.Proof.Spec
import proofs.«157119_j27711128994063_1_alg».proof.Proof.LibCat

noncomputable section

namespace Cert.Gcn

open Cert.ReferenceIdeal Cert.ReferenceIdeal.Gen Idealize.ShloMosaic Cert.Cat

variable {F : FTy → Type} [FloatOps F]

/-- An array of shape `S` and element type `e`. -/
abbrev Arr (F : FTy → Type) (S : Shape) (e : EltTy) : Type := (⟨S, e⟩ : BufTy).Contents (Elt F)

/-! ## The edge list with the self-loops appended -/

/-- The source node of every edge, then the nodes 0 … n−1 (each self-loop's source). -/
def srcIdx (ei : Arr F S2x1600000 .i32) : Arr F S1700000 .i32 :=
  cat2 S1700000 0 S1600000 S100000
    (shapeCast S1600000 (extractStridedSlice S1x1600000 ![0, 0] ei slices_S2x1600000_S1x1600000_0_0) shapeCasts_S1x1600000_S1600000)
    (iotaInDim S100000 32 0) concatenates_S1600000_S100000_S1700000_d0

/-- The target node of every edge, then the nodes 0 … n−1 (each self-loop's target). -/
def dstIdx (ei : Arr F S2x1600000 .i32) : Arr F S1700000 .i32 :=
  cat2 S1700000 0 S1600000 S100000
    (shapeCast S1600000 (extractStridedSlice S1x1600000 ![1, 0] ei slices_S2x1600000_S1x1600000_1_0) shapeCasts_S1x1600000_S1600000)
    (iotaInDim S100000 32 0) concatenates_S1600000_S100000_S1700000_d0

/-- Every edge's weight: one. -/
def ones : Arr F S1700000 .f32 :=
  broadcastInDim S1700000 ![] bcast_S_S1700000 (constant S_ .f32 0x3F800000#32)

/-- A node vector of zeros. -/
def zeroNodes : Arr F S100000 .f32 :=
  broadcastInDim S100000 ![] bcast_S_S100000 (constant S_ .f32 0x00000000#32)

/-! ## Degrees and the symmetric normalization -/

/-- The weighted in-degree: the edge weights added up at each edge's target. -/
def deg (dst : Arr F S1700000 .i32) (w : Arr F S1700000 .f32) : Arr F S100000 .f32 :=
  Host.scatterAdd scatter_S100000_S1700000x1_S1700000_n_0_0_1 zeroNodes
    (broadcastInDim S1700000x1 ![0] bcast_S1700000_S1700000x1_0 dst) w

/-- `rs` where `pos` holds and the scalar `z` elsewhere. -/
def pick (pos : Arr F S100000 .i1) (rs : Arr F S100000 .f32) (z : Arr F S_ .f32) : Arr F S100000 .f32 :=
  select pos rs (broadcastInDim S100000 ![] bcast_S_S100000 (id z))

/-- deg^(-1/2) where the degree is positive, 0 elsewhere. -/
def dinv (dst : Arr F S1700000 .i32) (w : Arr F S1700000 .f32) : Arr F S100000 .f32 :=
  pick (cmpf .ogt (deg dst w) zeroNodes) (Host.rsqrt (deg dst w)) (constant S_ .f32 0x00000000#32)

/-- A node number counted from the end when negative: n is added to it. -/
def wrapIdx (ix : Arr F S1700000 .i32) : Arr F S1700000 .i32 :=
  select (cmpi .slt ix (broadcastInDim S1700000 ![] bcast_S_S1700000 (constantI S_ 32 0#32)))
    (addi ix (broadcastInDim S1700000 ![] bcast_S_S1700000 (constantI S_ 32 100000#32))) ix

/-- A node vector read at every edge's node number. -/
def takeNodes (d : Arr F S100000 .f32) (ix : Arr F S1700000 .i32) : Arr F S1700000 .f32 :=
  Host.gather gather_S100000_S1700000x1_S1700000_n_0_n_n_0_1_1 d
    (broadcastInDim S1700000x1 ![0] bcast_S1700000_S1700000x1_0 (wrapIdx ix))

/-- Every edge's coefficient dinv[src] · weight · dinv[dst]. -/
def edgeNorm (src dst : Arr F S1700000 .i32) (w : Arr F S1700000 .f32) (d : Arr F S100000 .f32) : Arr F S1700000 .f32 :=
  mulf (mulf (takeNodes d src) w) (takeNodes d dst)

/-! ## Aggregation, 128 features wide (the first layer) and 64 wide (the second) -/

/-- Each edge's source row of `h` times the edge's coefficient, added up at the edge's target; then the bias. -/
def agg128 (h : Arr F S100000x128 .f32) (src dst : Arr F S1700000 .i32) (nrm : Arr F S1700000 .f32) (b : Arr F S128 .f32) :
    Arr F S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf
        (Host.gather gather_S100000x128_S1700000x1_S1700000x128_1_0_n_n_0_1_1128 h
          (broadcastInDim S1700000x1 ![0] bcast_S1700000_S1700000x1_0 (wrapIdx src)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The positive part, entry by entry. -/
def relu128 (x : Arr F S100000x128 .f32) : Arr F S100000x128 .f32 :=
  maximumf x (broadcastInDim S100000x128 ![] bcast_S_S100000x128 (constant S_ .f32 0x00000000#32))

/-- The same aggregation on 64 features. -/
def agg64 (h : Arr F S100000x64 .f32) (src dst : Arr F S1700000 .i32) (nrm : Arr F S1700000 .f32) (b : Arr F S64 .f32) :
    Arr F S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf
        (Host.gather gather_S100000x64_S1700000x1_S1700000x64_1_0_n_n_0_1_164 h
          (broadcastInDim S1700000x1 ![0] bcast_S1700000_S1700000x1_0 (wrapIdx src)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-! ## The layers from the edge list, and the network -/

/-- The edge coefficients computed from the edge list alone. -/
def normOf (ei : Arr F S2x1600000 .i32) : Arr F S1700000 .f32 :=
  edgeNorm (srcIdx ei) (dstIdx ei) ones (dinv (dstIdx ei) ones)

/-- The first layer after its matrix product: aggregate the product `h`, add the bias, take the positive part. -/
def layer1 (h : Arr F S100000x128 .f32) (ei : Arr F S2x1600000 .i32) (b : Arr F S128 .f32) : Arr F S100000x128 .f32 :=
  relu128 (agg128 h (srcIdx ei) (dstIdx ei) (normOf ei) b)

/-- The second layer after its matrix product. -/
def layer2 (h : Arr F S100000x64 .f32) (ei : Arr F S2x1600000 .i32) (b : Arr F S64 .f32) : Arr F S100000x64 .f32 :=
  agg64 h (srcIdx ei) (dstIdx ei) (normOf ei) b

/-- The two-layer network over the extended reals, the matrix products exact. -/
def gcn (x : Arr Ideal S100000x256 .f32) (ei : Arr Ideal S2x1600000 .i32) (w1 : Arr Ideal S256x128 .f32) (b1 : Arr Ideal S128 .f32)
    (w2 : Arr Ideal S128x64 .f32) (b2 : Arr Ideal S64 .f32) : Arr Ideal S100000x64 .f32 :=
  layer2 (plainDot (A := 100000) (K := 128) (B := 64) (layer1 (plainDot (A := 100000) (K := 256) (B := 128) x w1) ei b1) w2) ei b2

end Cert.Gcn

end
-- ==== Proof.LibTypedRef.lean ====
/-
  A typed reference's transports cancel.

  A typed reference pairs a buffer with a proof that the buffer's declared type is a given one; a host operation built
  over typed references carries its operands from the buffers' types to the given types and its result back, along
  those equations.  Carrying a value to the buffer's type and back again is the identity, whatever proof of the equation
  the reference holds — so a chain of such operations, each reading what the one before wrote, composes to the plain
  composition of their functions.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, _, _⟩ := x
  rfl

/-- From the buffer's type and back. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibHostLine.lean ====
/-
  A straight line of host operations read as a fold over buffer contents.

  A line cut in two is read piece after piece.  After a line, a buffer holds: if an operation of the line writes it,
  that operation's function of its operands' contents just before it; otherwise what it held at the start.  A
  two-operand concatenation is read over its two pieces, each piece in turn.
-/
import Idealize.ShloMosaic.Lib.StableHlo.Run
import proofs.«157119_j27711128994063_1_alg».proof.Proof.LibCat
import proofs.«157119_j27711128994063_1_alg».proof.Proof.LibTypedRef

namespace Cert.HostRun

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents of one buffer after a literal line of operations: each operation's result at the buffer it writes is its
    function of its operands' contents, at any other buffer what was there before it. -/
macro "read_line" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      Cert.Cat.cat2_eq, TRef.ofBuf_toBuf]))

/-- A buffer that no operation of a literal line writes keeps its contents: the line's lists are named so that they
    can be opened, and each operation's written buffer is compared with the buffer read. -/
syntax "keep_line" "[" ident,* "]" : tactic
macro_rules
  | `(tactic| keep_line [$ids,*]) =>
    `(tactic| (refine after_of_forall_not_mem _ _ (List.forall_iff_forall_mem.mp ?_)
               simp only [$[$ids:ident],*, List.cons_append, List.nil_append, List.append_nil, List.Forall,
                 nullary_writes, unary_writes, binary_writes, ternary_writes, quaternary_writes, reshape_writes,
                 Finset.mem_singleton]
               repeat' apply And.intro
               all_goals exact devRef_ne_of_ne (by decide)))

end Cert.HostRun
-- ==== Proof.HostK.lean ====
/-
  The host operations around the two matrix products of the accelerator program, read as functions.

  Between the first product and the second, and after the second, the program runs the same line of host operations:
  the edge list is split into sources and targets and the self-loops are appended; the degrees are added up and turned
  into the normalization; each edge's source row is taken, scaled and added up at the edge's target; the bias is
  added (and, after the first layer, the positive part is taken).  Each stretch of that line is read here over ANY
  contents `V` of the buffers at its start: a buffer the stretch writes holds the stretch's function of the
  contents it reads, a buffer it does not write keeps what it held.  Put end to end, the stretches of a layer compute
  `Cert.Gcn.layer1` (resp. `layer2`) of the product, the edge list and the bias.
-/
import proofs.«157119_j27711128994063_1_alg».proof.Proof.Gen.KernelIdeal.Launch
import proofs.«157119_j27711128994063_1_alg».proof.Proof.Layers
import proofs.«157119_j27711128994063_1_alg».proof.Proof.LibHostLine

noncomputable section

namespace Cert.KernelIdeal.HostK

open Cert.KernelIdeal Cert.KernelIdeal.Gen Idealize.ShloMosaic Idealize.ShloMosaic.StableHlo Cert.HostRun Cert.Gcn

variable {F : FTy → Type} [FloatOps F]
variable (V : Valuation τ sig (Elt F))

/-! ## What each stretch writes -/

abbrev wr1 : List (Ref sig .tc) := [main_v1, main_v2, main_v3, main_v4, main_v5, main_v6, main_v7, main_cst, main_v8, main_cst_0,
  main_v9, main_v10, main_v11, main_cst_1, main_v12, main_v13, main_v14, main_cst_2]
abbrev wr1_1 : List (Ref sig .tc) := [main_call0_v0, main_call0_v1, main_v15]
abbrev wr1_2 : List (Ref sig .tc) := [main_c, main_v16, main_v17, main_c_3, main_v18, main_v19, main_v20, main_v21, main_v22, main_v23,
  main_c_4, main_v24, main_v25, main_c_5, main_v26, main_v27, main_v28, main_v29, main_v30, main_v31,
  main_c_6, main_v32, main_v33, main_c_7, main_v34, main_v35, main_v36, main_v37, main_v38, main_v39, main_v40, main_v41,
  main_cst_8, main_v42, main_v43, main_v44, main_v45, main_v46, main_v47]
abbrev wr1_3 : List (Ref sig .tc) := [main_call1_cst, main_call1_v0, main_v48]
abbrev wr2 : List (Ref sig .tc) := [main_v50, main_v51, main_v52, main_v53, main_v54, main_v55, main_v56, main_cst_9, main_v57, main_cst_10,
  main_v58, main_v59, main_v60, main_cst_11, main_v61, main_v62, main_v63, main_cst_12]
abbrev wr2_1 : List (Ref sig .tc) := [main_call2_v0, main_call2_v1, main_v64]
abbrev wr2_2 : List (Ref sig .tc) := [main_c_13, main_v65, main_v66, main_c_14, main_v67, main_v68, main_v69, main_v70, main_v71, main_v72,
  main_c_15, main_v73, main_v74, main_c_16, main_v75, main_v76, main_v77, main_v78, main_v79, main_v80,
  main_c_17, main_v81, main_v82, main_c_18, main_v83, main_v84, main_v85, main_v86, main_v87, main_v88, main_v89, main_v90,
  main_cst_19, main_v91, main_v92, main_v93, main_v94, main_v95, main_v96]

/-- Every operation of a literal stretch writes a buffer of the stretch's list. -/
syntax "writes_in" "[" ident "]" : tactic
macro_rules
  | `(tactic| writes_in [$l:ident]) =>
    `(tactic| (simp only [$l:ident, List.Forall, nullary_writes, unary_writes, binary_writes, ternary_writes, quaternary_writes,
                 reshape_writes, Finset.singleton_subset_iff, List.mem_toFinset]
               repeat' apply And.intro
               all_goals exact List.mem_map_of_mem (by decide)))

theorem writes1 : (hostOps1 : List (HloOp τ sig (Elt F))).Forall fun op => op.writes ⊆ (wr1.map (Proc.devRef (τ := τ) .tc)).toFinset := by
  writes_in [hostOps1]
theorem writes1_1 : (hostOps1_1 : List (HloOp τ sig (Elt F))).Forall fun op => op.writes ⊆ (wr1_1.map (Proc.devRef (τ := τ) .tc)).toFinset := by
  writes_in [hostOps1_1]
theorem writes1_2 : (hostOps1_2 : List (HloOp τ sig (Elt F))).Forall fun op => op.writes ⊆ (wr1_2.map (Proc.devRef (τ := τ) .tc)).toFinset := by
  writes_in [hostOps1_2]
theorem writes1_3 : (hostOps1_3 : List (HloOp τ sig (Elt F))).Forall fun op => op.writes ⊆ (wr1_3.map (Proc.devRef (τ := τ) .tc)).toFinset := by
  writes_in [hostOps1_3]
theorem writes2 : (hostOps2 : List (HloOp τ sig (Elt F))).Forall fun op => op.writes ⊆ (wr2.map (Proc.devRef (τ := τ) .tc)).toFinset := by
  writes_in [hostOps2]
theorem writes2_1 : (hostOps2_1 : List (HloOp τ sig (Elt F))).Forall fun op => op.writes ⊆ (wr2_1.map (Proc.devRef (τ := τ) .tc)).toFinset := by
  writes_in [hostOps2_1]
theorem writes2_2 : (hostOps2_2 : List (HloOp τ sig (Elt F))).Forall fun op => op.writes ⊆ (wr2_2.map (Proc.devRef (τ := τ) .tc)).toFinset := by
  writes_in [hostOps2_2]

/-! ## A buffer a stretch does not write keeps its contents -/

theorem keep1 (r : Ref sig .tc) (h : r ∉ wr1) : after hostOps1 V (Proc.devRef .tc r) = V (Proc.devRef .tc r) :=
  after_of_writes_sub hostOps1 V writes1 h
theorem keep1_1 (r : Ref sig .tc) (h : r ∉ wr1_1) : after hostOps1_1 V (Proc.devRef .tc r) = V (Proc.devRef .tc r) :=
  after_of_writes_sub hostOps1_1 V writes1_1 h
theorem keep1_2 (r : Ref sig .tc) (h : r ∉ wr1_2) : after hostOps1_2 V (Proc.devRef .tc r) = V (Proc.devRef .tc r) :=
  after_of_writes_sub hostOps1_2 V writes1_2 h
theorem keep1_3 (r : Ref sig .tc) (h : r ∉ wr1_3) : after hostOps1_3 V (Proc.devRef .tc r) = V (Proc.devRef .tc r) :=
  after_of_writes_sub hostOps1_3 V writes1_3 h
theorem keep2 (r : Ref sig .tc) (h : r ∉ wr2) : after hostOps2 V (Proc.devRef .tc r) = V (Proc.devRef .tc r) :=
  after_of_writes_sub hostOps2 V writes2 h
theorem keep2_1 (r : Ref sig .tc) (h : r ∉ wr2_1) : after hostOps2_1 V (Proc.devRef .tc r) = V (Proc.devRef .tc r) :=
  after_of_writes_sub hostOps2_1 V writes2_1 h
theorem keep2_2 (r : Ref sig .tc) (h : r ∉ wr2_2) : after hostOps2_2 V (Proc.devRef .tc r) = V (Proc.devRef .tc r) :=
  after_of_writes_sub hostOps2_2 V writes2_2 h

/-! ## The first layer's stretches, each read at a variable start `V` -/

/-- The 18 operations that prepare the edge list: sources and targets with the self-loops appended, the unit weights,
    and, from the degrees, where they are positive and their inverse square roots. -/
theorem s1_src : after hostOps1 V (Proc.devRef .tc main_v6) = srcIdx (V (Proc.devRef .tc main_arg1)) := by
  read_line <;> rfl
theorem s1_dst : after hostOps1 V (Proc.devRef .tc main_v7) = dstIdx (V (Proc.devRef .tc main_arg1)) := by
  read_line <;> rfl
theorem s1_ones : after hostOps1 V (Proc.devRef .tc main_v8) = (ones : Arr F Cert.ReferenceIdeal.S1700000 .f32) := by
  read_line <;> rfl
theorem s1_pos : after hostOps1 V (Proc.devRef .tc main_v13) = cmpf .ogt (deg (dstIdx (V (Proc.devRef .tc main_arg1))) ones) zeroNodes := by
  read_line <;> rfl
theorem s1_rs : after hostOps1 V (Proc.devRef .tc main_v14) = Host.rsqrt (deg (dstIdx (V (Proc.devRef .tc main_arg1))) ones) := by
  read_line <;> rfl
theorem s1_z : after hostOps1 V (Proc.devRef .tc main_cst_2) = (constant Cert.ReferenceIdeal.S_ .f32 0x00000000#32 : Arr F Cert.ReferenceIdeal.S_ .f32) := by
  read_line <;> rfl

/-- The outlined selection: the inverse square root where the degree is positive, the scalar elsewhere. -/
theorem s2_dinv : after hostOps1_1 V (Proc.devRef .tc main_v15) = pick (V (Proc.devRef .tc main_v13)) (V (Proc.devRef .tc main_v14)) (V (Proc.devRef .tc main_cst_2)) := by
  read_line <;> rfl

/-- The 39 operations of the aggregation: the edge coefficients, the scaled source rows added up at the targets, the bias. -/
theorem s3_out : after hostOps1_2 V (Proc.devRef .tc main_v47)
    = agg128 (V (Proc.devRef .tc main_v0)) (V (Proc.devRef .tc main_v6)) (V (Proc.devRef .tc main_v7)) (edgeNorm (V (Proc.devRef .tc main_v6)) (V (Proc.devRef .tc main_v7)) (V (Proc.devRef .tc main_v8)) (V (Proc.devRef .tc main_v15))) (V (Proc.devRef .tc main_arg3)) := by
  read_line <;> rfl

/-- The outlined positive part. -/
theorem s4_out : after hostOps1_3 V (Proc.devRef .tc main_v48) = relu128 (V (Proc.devRef .tc main_v47)) := by
  read_line <;> rfl

/-- The four stretches end to end: the first layer of the product held in `main_v0`. -/
theorem layer1_out :
    after hostOps1_3 (after hostOps1_2 (after hostOps1_1 (after hostOps1 V))) (Proc.devRef .tc main_v48)
      = layer1 (V (Proc.devRef .tc main_v0)) (V (Proc.devRef .tc main_arg1)) (V (Proc.devRef .tc main_arg3)) := by
  rw [s4_out, s3_out, s2_dinv,
    keep1_1 _ main_v0 (by decide), keep1 _ main_v0 (by decide),
    keep1_1 _ main_v6 (by decide), s1_src, keep1_1 _ main_v7 (by decide), s1_dst, keep1_1 _ main_v8 (by decide), s1_ones,
    s1_pos, s1_rs, s1_z, keep1_1 _ main_arg3 (by decide), keep1 _ main_arg3 (by decide)]
  rfl

/-- A buffer none of the four stretches writes is as it was. -/
theorem layer1_keep (r : Ref sig .tc) (h1 : r ∉ wr1) (h2 : r ∉ wr1_1) (h3 : r ∉ wr1_2) (h4 : r ∉ wr1_3) :
    after hostOps1_3 (after hostOps1_2 (after hostOps1_1 (after hostOps1 V))) (Proc.devRef .tc r) = V (Proc.devRef .tc r) := by
  rw [keep1_3 _ r h4, keep1_2 _ r h3, keep1_1 _ r h2, keep1 _ r h1]

/-! ## The second layer's stretches -/

theorem t1_src : after hostOps2 V (Proc.devRef .tc main_v55) = srcIdx (V (Proc.devRef .tc main_arg1)) := by
  read_line <;> rfl
theorem t1_dst : after hostOps2 V (Proc.devRef .tc main_v56) = dstIdx (V (Proc.devRef .tc main_arg1)) := by
  read_line <;> rfl
theorem t1_ones : after hostOps2 V (Proc.devRef .tc main_v57) = (ones : Arr F Cert.ReferenceIdeal.S1700000 .f32) := by
  read_line <;> rfl
theorem t1_pos : after hostOps2 V (Proc.devRef .tc main_v62) = cmpf .ogt (deg (dstIdx (V (Proc.devRef .tc main_arg1))) ones) zeroNodes := by
  read_line <;> rfl
theorem t1_rs : after hostOps2 V (Proc.devRef .tc main_v63) = Host.rsqrt (deg (dstIdx (V (Proc.devRef .tc main_arg1))) ones) := by
  read_line <;> rfl
theorem t1_z : after hostOps2 V (Proc.devRef .tc main_cst_12) = (constant Cert.ReferenceIdeal.S_ .f32 0x00000000#32 : Arr F Cert.ReferenceIdeal.S_ .f32) := by
  read_line <;> rfl
theorem t2_dinv : after hostOps2_1 V (Proc.devRef .tc main_v64) = pick (V (Proc.devRef .tc main_v62)) (V (Proc.devRef .tc main_v63)) (V (Proc.devRef .tc main_cst_12)) := by
  read_line <;> rfl
theorem t3_out : after hostOps2_2 V (Proc.devRef .tc main_v96)
    = agg64 (V (Proc.devRef .tc main_v49)) (V (Proc.devRef .tc main_v55)) (V (Proc.devRef .tc main_v56)) (edgeNorm (V (Proc.devRef .tc main_v55)) (V (Proc.devRef .tc main_v56)) (V (Proc.devRef .tc main_v57)) (V (Proc.devRef .tc main_v64))) (V (Proc.devRef .tc main_arg5)) := by
  read_line <;> rfl

/-- The three stretches end to end: the second layer of the product held in `main_v49`. -/
theorem layer2_out :
    after hostOps2_2 (after hostOps2_1 (after hostOps2 V)) (Proc.devRef .tc main_v96)
      = layer2 (V (Proc.devRef .tc main_v49)) (V (Proc.devRef .tc main_arg1)) (V (Proc.devRef .tc main_arg5)) := by
  rw [t3_out, t2_dinv,
    keep2_1 _ main_v49 (by decide), keep2 _ main_v49 (by decide),
    keep2_1 _ main_v55 (by decide), t1_src, keep2_1 _ main_v56 (by decide), t1_dst, keep2_1 _ main_v57 (by decide), t1_ones,
    t1_pos, t1_rs, t1_z, keep2_1 _ main_arg5 (by decide), keep2 _ main_arg5 (by decide)]
  rfl

/-- A buffer none of the three stretches writes is as it was. -/
theorem layer2_keep (r : Ref sig .tc) (h1 : r ∉ wr2) (h2 : r ∉ wr2_1) (h3 : r ∉ wr2_2) :
    after hostOps2_2 (after hostOps2_1 (after hostOps2 V)) (Proc.devRef .tc r) = V (Proc.devRef .tc r) := by
  rw [keep2_2 _ r h3, keep2_1 _ r h2, keep2 _ r h1]

end Cert.KernelIdeal.HostK

end
-- ==== Proof.KRun.lean ====
/-
  The accelerator program's run with its result named, and the result as a function of the arguments.

  The program is: the first matrix product (a region of 20 row blocks), the first layer's host operations, the second
  product (another region), the second layer's host operations.  The buffer contents at each boundary are a fold from
  the launch memory; the run ends with every buffer at the last boundary's contents, so the result buffer holds the
  fold read at `main_v96`.  Reading the fold backwards: the last three stretches compute the second layer of what
  `main_v49` held when they began; the second region left there the exact product of `main_v48` and the second weight
  matrix; the four stretches before it computed the first layer of what `main_v0` held, which the first region left
  at the exact product of the input and the first weight matrix.  No stretch and no region writes an argument, so
  each is read back to its launch contents.  Altogether the result is `Cert.Gcn.gcn` of the six arguments.
-/
import proofs.«157119_j27711128994063_1_alg».proof.Proof.Gen.KernelIdeal.Frame
import proofs.«157119_j27711128994063_1_alg».proof.Proof.Blocks
import proofs.«157119_j27711128994063_1_alg».proof.Proof.HostK
import proofs.«157119_j27711128994063_1_alg».proof.Proof.Layers

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the last boundary's contents
    and the arguments as launched: the launch over the program's segments, the last thread state read against the
    final state, the result buffer among the buffers it holds. -/
theorem run_named : θ_run defs (onTc (τ := τ) (main (F := F))) ⟨m, fun _ => 0, ρ⟩ (fun r => ∀ c : Dev nD,
      r.2.mem ((c.tc : Thread nD τ).loc main_v96) = W9 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v96 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Named

/-! ## The last boundary's contents at the result buffer, over the extended reals -/

section Value

open Cert.Gcn StableHlo

variable (m : (ℓ : Loc nD τ sig) → Buf (Elt Ideal) ℓ) (ρ : Dev nD → PrngReg)

/-- The first region leaves the exact product of the input and the first weight matrix. -/
theorem W1_v0 (c : Dev nD) : W1 m ρ c (Proc.devRef .tc main_v0)
    = plainDot (A := 100000) (K := 256) (B := 128) (m ((c : Thread nD τ).loc main_arg0)) (m ((c : Thread nD τ).loc main_arg2)) :=
  (W1_arr m ρ c 2).trans (Cert.KernelIdeal.Blocks.region0_out (V0 m ρ) c)

/-- Neither the first region nor the first layer's stretches write the edge list, the biases or the second weights. -/
theorem W5_of (c : Dev nD) (r : Ref sig .tc) (h0 : ∀ w, Pipeline.arrRef spec0 w ≠ r)
    (h1 : r ∉ HostK.wr1) (h2 : r ∉ HostK.wr1_1) (h3 : r ∉ HostK.wr1_2) (h4 : r ∉ HostK.wr1_3) :
    W5 m ρ c (Proc.devRef .tc r) = m ((c : Thread nD τ).loc r) :=
  (HostK.layer1_keep (W1 m ρ c) r h1 h2 h3 h4).trans (W1_of_ne m ρ c r h0)

/-- After the first layer's stretches: the first layer of the first product. -/
theorem W5_v48 (c : Dev nD) : W5 m ρ c (Proc.devRef .tc main_v48)
    = layer1 (plainDot (A := 100000) (K := 256) (B := 128) (m ((c : Thread nD τ).loc main_arg0)) (m ((c : Thread nD τ).loc main_arg2)))
        (m ((c : Thread nD τ).loc main_arg1)) (m ((c : Thread nD τ).loc main_arg3)) := by
  refine (HostK.layer1_out (W1 m ρ c)).trans ?_
  rw [W1_v0, W1_of_ne m ρ c main_arg1 (by decide), W1_of_ne m ρ c main_arg3 (by decide)]

/-- The second region leaves the exact product of the first layer's output and the second weight matrix. -/
theorem W6_v49 (c : Dev nD) : W6 m ρ c (Proc.devRef .tc main_v49)
    = plainDot (A := 100000) (K := 128) (B := 64) (W5 m ρ c (Proc.devRef .tc main_v48)) (m ((c : Thread nD τ).loc main_arg4)) := by
  refine ((W6_arr m ρ c 2).trans (Cert.KernelIdeal.Blocks.region1_out (V5 m ρ) c)).trans ?_
  rw [show V5 m ρ c main_arg4 = m ((c : Thread nD τ).loc main_arg4) from W5_of m ρ c main_arg4 (by decide) (by decide) (by decide) (by decide) (by decide)]

/-- The second region writes neither the edge list nor the second bias. -/
theorem W6_of (c : Dev nD) (r : Ref sig .tc) (h0 : ∀ w, Pipeline.arrRef spec0 w ≠ r) (h5 : ∀ w, Pipeline.arrRef spec1 w ≠ r)
    (h1 : r ∉ HostK.wr1) (h2 : r ∉ HostK.wr1_1) (h3 : r ∉ HostK.wr1_2) (h4 : r ∉ HostK.wr1_3) :
    W6 m ρ c (Proc.devRef .tc r) = m ((c : Thread nD τ).loc r) :=
  (W6_of_ne m ρ c r h5).trans (W5_of m ρ c r h0 h1 h2 h3 h4)

/-- The result buffer at the last boundary: the network of the six arguments. -/
theorem W9_v96 (c : Dev nD) : W9 m ρ c (Proc.devRef .tc main_v96)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (HostK.layer2_out (W6 m ρ c)).trans ?_
  rw [W6_v49, W5_v48,
    W6_of m ρ c main_arg1 (by decide) (by decide) (by decide) (by decide) (by decide) (by decide),
    W6_of m ρ c main_arg5 (by decide) (by decide) (by decide) (by decide) (by decide) (by decide)]
  rfl

/-- The run, read: the result buffer ends at the network of the arguments, whatever arrays `x … b2` the arguments hold. -/
theorem run_at (x : Dev nD → Arr Ideal Cert.ReferenceIdeal.S100000x256 .f32) (ei : Dev nD → Arr Ideal Cert.ReferenceIdeal.S2x1600000 .i32)
    (w1 : Dev nD → Arr Ideal Cert.ReferenceIdeal.S256x128 .f32) (b1 : Dev nD → Arr Ideal Cert.ReferenceIdeal.S128 .f32)
    (w2 : Dev nD → Arr Ideal Cert.ReferenceIdeal.S128x64 .f32) (b2 : Dev nD → Arr Ideal Cert.ReferenceIdeal.S64 .f32)
    (hx : ∀ c : Dev nD, m ((c.tc : Thread nD τ).loc main_arg0) = x c) (hei : ∀ c : Dev nD, m ((c.tc : Thread nD τ).loc main_arg1) = ei c)
    (hw1 : ∀ c : Dev nD, m ((c.tc : Thread nD τ).loc main_arg2) = w1 c) (hb1 : ∀ c : Dev nD, m ((c.tc : Thread nD τ).loc main_arg3) = b1 c)
    (hw2 : ∀ c : Dev nD, m ((c.tc : Thread nD τ).loc main_arg4) = w2 c) (hb2 : ∀ c : Dev nD, m ((c.tc : Thread nD τ).loc main_arg5) = b2 c) :
    θ_run defs (onTc (τ := τ) (main (F := Ideal))) ⟨m, fun _ => 0, ρ⟩ (fun r => ∀ c : Dev nD,
      r.2.mem ((c.tc : Thread nD τ).loc main_v96) = gcn (x c) (ei c) (w1 c) (b1 c) (w2 c) (b2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((W9_v96 m ρ c).trans (by rw [hx c, hei c, hw1 c, hb1 c, hw2 c, hb2 c])), (h c).2⟩)
    (run_named m ρ)

end Value

end Cert.KernelIdeal.KRun

end
-- ==== Proof.RefNet.lean ====
/-
  The reference program's result as the network of its arguments.

  The reference runs the same host operations as the accelerator program, with each matrix product as one host
  `dot_general`.  Its run ends with the result buffer at the operations' composed term of the arguments.  That term is the
  second layer of the host product of the first layer of the host product (`hostNet`, by unfolding the layers), and over
  the extended reals a host product with one contracted axis is the exact product Σ_k lhs[p, k] · rhs[k, c]; so the
  reference's result is `Cert.Gcn.gcn` of the six arguments.
-/
import proofs.«157119_j27711128994063_1_alg».proof.Proof.RefRunP
import proofs.«157119_j27711128994063_1_alg».proof.Proof.Layers
import proofs.«157119_j27711128994063_1_alg».proof.Proof.LibPlainDot

noncomputable section

namespace Cert.ReferenceIdeal.RefNet

open Cert.ReferenceIdeal Cert.ReferenceIdeal.Gen Idealize.ShloMosaic Idealize.ShloMosaic.TcCoe Idealize.SL.Sem
open Idealize.ShloMosaic.ValueIdx Cert.Gcn

/-- The first host product, [100000, 256] by [256, 128], is the exact product. -/
theorem dot1_eq (l : Arr Ideal S100000x256 .f32) (r : Arr Ideal S256x128 .f32) :
    Host.dotGeneral (F := Ideal) (φ₁ := .f32) (φ₂ := .f32) dot_S100000x256_S256x128_S100000x128_1_0_0_1_n_n none l r
      = plainDot (A := 100000) (K := 256) (B := 128) l r := by
  funext j
  obtain ⟨p, c, rfl⟩ : ∃ (p : Fin 100000) (c : Fin 128), j = ix2 p c := ⟨j 0, j 1, eq_ix2 j⟩
  exact PlainDot.dotGeneral_apply dot_S100000x256_S256x128_S100000x128_1_0_0_1_n_n none .single rfl rfl
    (fun _ _ => rfl) (fun _ _ => rfl) (fun _ _ => rfl) (fun _ _ => rfl) l r p c

/-- The second host product, [100000, 128] by [128, 64], is the exact product. -/
theorem dot2_eq (l : Arr Ideal S100000x128 .f32) (r : Arr Ideal S128x64 .f32) :
    Host.dotGeneral (F := Ideal) (φ₁ := .f32) (φ₂ := .f32) dot_S100000x128_S128x64_S100000x64_1_0_0_1_n_n none l r
      = plainDot (A := 100000) (K := 128) (B := 64) l r := by
  funext j
  obtain ⟨p, c, rfl⟩ : ∃ (p : Fin 100000) (c : Fin 64), j = ix2 p c := ⟨j 0, j 1, eq_ix2 j⟩
  exact PlainDot.dotGeneral_apply dot_S100000x128_S128x64_S100000x64_1_0_0_1_n_n none .single rfl rfl
    (fun _ _ => rfl) (fun _ _ => rfl) (fun _ _ => rfl) (fun _ _ => rfl) l r p c

/-- The network with each matrix product the host's. -/
def hostNet {F : FTy → Type} [FloatOps F] (x : Arr F S100000x256 .f32) (ei : Arr F S2x1600000 .i32) (w1 : Arr F S256x128 .f32)
    (b1 : Arr F S128 .f32) (w2 : Arr F S128x64 .f32) (b2 : Arr F S64 .f32) : Arr F S100000x64 .f32 :=
  layer2 (Host.dotGeneral dot_S100000x128_S128x64_S100000x64_1_0_0_1_n_n none
    (layer1 (Host.dotGeneral dot_S100000x256_S256x128_S100000x128_1_0_0_1_n_n none x w1) ei b1) w2) ei b2

/-- Over the extended reals it is the network with the exact products. -/
theorem hostNet_eq (x : Arr Ideal S100000x256 .f32) (ei : Arr Ideal S2x1600000 .i32) (w1 : Arr Ideal S256x128 .f32)
    (b1 : Arr Ideal S128 .f32) (w2 : Arr Ideal S128x64 .f32) (b2 : Arr Ideal S64 .f32) :
    hostNet x ei w1 b1 w2 b2 = gcn x ei w1 b1 w2 b2 := by
  unfold hostNet gcn
  rw [dot1_eq, dot2_eq]

set_option maxRecDepth 8192 in
/-- The run's composed term is the network with the host products: the layers unfolded are the printed operations. -/
theorem res_eq {F : FTy → Type} [FloatOps F] (m : (ℓ : Loc nD τ sig) → Buf (Elt F) ℓ) (c : Dev nD) :
    ValueP.res_main_v96 m c
      = hostNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold ValueP.res_main_v96 hostNet layer2 layer1 normOf agg64 agg128 relu128 edgeNorm takeNodes wrapIdx dinv pick deg zeroNodes ones srcIdx dstIdx Cert.Cat.cat2
  rfl

/-- The run, read: the result buffer ends at the network of the arguments, whatever arrays `x … b2` the arguments hold. -/
theorem run_at (m : (ℓ : Loc nD τ sig) → Buf (Elt Ideal) ℓ) (ρ : Dev nD → PrngReg)
    (x : Dev nD → Arr Ideal S100000x256 .f32) (ei : Dev nD → Arr Ideal S2x1600000 .i32)
    (w1 : Dev nD → Arr Ideal S256x128 .f32) (b1 : Dev nD → Arr Ideal S128 .f32)
    (w2 : Dev nD → Arr Ideal S128x64 .f32) (b2 : Dev nD → Arr Ideal S64 .f32)
    (hx : ∀ c : Dev nD, m ((c.tc : Thread nD τ).loc main_arg0) = x c) (hei : ∀ c : Dev nD, m ((c.tc : Thread nD τ).loc main_arg1) = ei c)
    (hw1 : ∀ c : Dev nD, m ((c.tc : Thread nD τ).loc main_arg2) = w1 c) (hb1 : ∀ c : Dev nD, m ((c.tc : Thread nD τ).loc main_arg3) = b1 c)
    (hw2 : ∀ c : Dev nD, m ((c.tc : Thread nD τ).loc main_arg4) = w2 c) (hb2 : ∀ c : Dev nD, m ((c.tc : Thread nD τ).loc main_arg5) = b2 c) :
    θ_run defs (onTc (τ := τ) (main (F := Ideal))) ⟨m, fun _ => 0, ρ⟩ (fun r => ∀ c : Dev nD,
      r.2.mem ((c.tc : Thread nD τ).loc main_v96) = gcn (x c) (ei c) (w1 c) (b1 c) (w2 c) (b2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (by
      rw [res_eq, hx c, hei c, hw1 c, hb1 c, hw2 c, hb2 c, hostNet_eq]), (h c).2⟩)
    (ValueP.run (F := Ideal) m ρ)

end Cert.ReferenceIdeal.RefNet

end
-- ==== Proof.lean ====
/- The proof of `Cert.Claim` for a two-layer graph convolution whose two matrix products run on the accelerator.

   Both programs compute, from node features x, an edge list, weights W1, W2 and biases b1, b2,
     out = layer(relu(layer(x · W1, b1)) · W2, b2),   layer(h, b)[v, :] = Σ_{e : dst e = v} h[src e, :] · norm[e] + b,
   with norm[e] = dinv[src e] · dinv[dst e] from the in-degrees of the graph with self-loops (Proof/Layers.lean).  The
   accelerator program forms each product one block of 5000 rows at a time, the reference in one host operation; over the
   extended reals both are the exact product Σ_k lhs[p, k] · rhs[k, c] (the narrowing of the operands before the
   accelerator's product is the identity there), and every other operation is the same host operation in the same
   order.  So both result buffers end at ONE function, `Cert.Gcn.gcn`, of the argument arrays: Proof/KRun.lean for the
   accelerator program (Proof/Blocks.lean the two products, Proof/HostK.lean the host operations between and after
   them), Proof/RefNet.lean for the reference.  No law of arithmetic beyond that is used, so the precondition (finite
   inputs) is never opened.  The three frame claims are the programs' runs with the result dropped; the idealization
   rewrote nothing, so `preserves` is trivial. -/
import proofs.«157119_j27711128994063_1_alg».proof.Defs
import proofs.«157119_j27711128994063_1_alg».proof.Proof.Gen.Kernel
import proofs.«157119_j27711128994063_1_alg».proof.Proof.Gen.Kernel.Frame
import proofs.«157119_j27711128994063_1_alg».proof.Proof.Gen.KernelIdeal
import proofs.«157119_j27711128994063_1_alg».proof.Proof.Gen.KernelIdeal.Frame
import proofs.«157119_j27711128994063_1_alg».proof.Proof.Gen.ReferenceIdeal
import proofs.«157119_j27711128994063_1_alg».proof.Proof.Gen.Pre_finite_inputs
import proofs.«157119_j27711128994063_1_alg».proof.Proof.KRun
import proofs.«157119_j27711128994063_1_alg».proof.Proof.RefNet
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the result buffer at the network `Cert.Gcn.gcn` of
    the accelerator program's argument arrays: the accelerator program by its run read at those arrays, the reference by
    its run read at the same arrays through the agreement. -/
theorem algebraic : Cert.algebraic_KernelIdeal_ReferenceIdeal := fun m ρ m' ρ' _ hagree =>
  ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KRun.run_at m ρ
      (fun c => m ((c.tc : Thread Cert.KernelIdeal.nD Cert.KernelIdeal.τ).loc Cert.KernelIdeal.main_arg0)) (fun c => m ((c.tc : Thread Cert.KernelIdeal.nD Cert.KernelIdeal.τ).loc Cert.KernelIdeal.main_arg1)) (fun c => m ((c.tc : Thread Cert.KernelIdeal.nD Cert.KernelIdeal.τ).loc Cert.KernelIdeal.main_arg2))
      (fun c => m ((c.tc : Thread Cert.KernelIdeal.nD Cert.KernelIdeal.τ).loc Cert.KernelIdeal.main_arg3)) (fun c => m ((c.tc : Thread Cert.KernelIdeal.nD Cert.KernelIdeal.τ).loc Cert.KernelIdeal.main_arg4)) (fun c => m ((c.tc : Thread Cert.KernelIdeal.nD Cert.KernelIdeal.τ).loc Cert.KernelIdeal.main_arg5))
      (fun _ => rfl) (fun _ => rfl) (fun _ => rfl) (fun _ => rfl) (fun _ => rfl) (fun _ => rfl),
    Cert.ReferenceIdeal.RefNet.run_at m' ρ'
      (fun c => m ((c.tc : Thread Cert.KernelIdeal.nD Cert.KernelIdeal.τ).loc Cert.KernelIdeal.main_arg0)) (fun c => m ((c.tc : Thread Cert.KernelIdeal.nD Cert.KernelIdeal.τ).loc Cert.KernelIdeal.main_arg1)) (fun c => m ((c.tc : Thread Cert.KernelIdeal.nD Cert.KernelIdeal.τ).loc Cert.KernelIdeal.main_arg2))
      (fun c => m ((c.tc : Thread Cert.KernelIdeal.nD Cert.KernelIdeal.τ).loc Cert.KernelIdeal.main_arg3)) (fun c => m ((c.tc : Thread Cert.KernelIdeal.nD Cert.KernelIdeal.τ).loc Cert.KernelIdeal.main_arg4)) (fun c => m ((c.tc : Thread Cert.KernelIdeal.nD Cert.KernelIdeal.τ).loc Cert.KernelIdeal.main_arg5))
      (fun c => (hagree c).1) (fun c => (hagree c).2.1) (fun c => (hagree c).2.2.1)
      (fun c => (hagree c).2.2.2.1) (fun c => (hagree c).2.2.2.2.1) (fun c => (hagree c).2.2.2.2.2)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
